-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S4096x14336 : Shape := ⟨2, ![4096, 14336]⟩
abbrev S32x14336 : Shape := ⟨2, ![32, 14336]⟩
abbrev S14336 : Shape := ⟨1, ![14336]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S32x14336 : S_.BroadcastsInDim S32x14336 (![] : Fin 0 → Fin S32x14336.rank)
  reducesTo_S32x14336_S_d0_1 : S32x14336.ReducesTo [0, 1] S_
  bcast_S_S14336 : S_.BroadcastsInDim S14336 (![] : Fin 0 → Fin S14336.rank)
  reducesTo_S14336_S_d0 : S14336.ReducesTo [0] S_

variable [Facts]

def fn_part1 {F : FTy → Type} [FloatOps F] (main_v13 : IVec S_ 1) (main_v16 : IVec S14336 1) : IVec S_ 1 :=
  let main_c_5 : IVec S_ 1 := constantI S_ 1 1#1
  let main_v17 : IVec S_ 1 := (fun x v => Host.reduce IntOp.andi x v reducesTo_S14336_S_d0 h_S_) main_v16 main_c_5
  let main_v18 : IVec S_ 1 := andi main_v13 main_v17
  main_v18

def fn {F : FTy → Type} [FloatOps F] (main_arg0 : FVec F S8x32x4096 .f32) (main_arg1 : IVec S4096x14336 32) (main_arg2 : FVec F S32x14336 .f32) (main_arg3 : FVec F S32x14336 .f32) (main_arg4 : FVec F S14336 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S32x14336 .f32 := Host.absf main_arg2
  let main_cst_0 : FVec F S_ .f32 := constant S_ .f32 0x7F800000#32
  let main_v5 : FVec F S32x14336 .f32 := broadcastInDim S32x14336 ![] bcast_S_S32x14336 main_cst_0
  let main_v6 : IVec S32x14336 1 := cmpf .olt main_v4 main_v5
  let main_c_1 : IVec S_ 1 := constantI S_ 1 1#1
  let main_v7 : IVec S_ 1 := (fun x v => Host.reduce IntOp.andi x v reducesTo_S32x14336_S_d0_1 h_S_) main_v6 main_c_1
  let main_v8 : IVec S_ 1 := andi main_v3 main_v7
  let main_v9 : FVec F S32x14336 .f32 := Host.absf main_arg3
  let main_cst_2 : FVec F S_ .f32 := constant S_ .f32 0x7F800000#32
  let main_v10 : FVec F S32x14336 .f32 := broadcastInDim S32x14336 ![] bcast_S_S32x14336 main_cst_2
  let main_v11 : IVec S32x14336 1 := cmpf .olt main_v9 main_v10
  let main_c_3 : IVec S_ 1 := constantI S_ 1 1#1
  let main_v12 : IVec S_ 1 := (fun x v => Host.reduce IntOp.andi x v reducesTo_S32x14336_S_d0_1 h_S_) main_v11 main_c_3
  let main_v13 : IVec S_ 1 := andi main_v8 main_v12
  let main_v14 : FVec F S14336 .f32 := Host.absf main_arg4
  let main_cst_4 : FVec F S_ .f32 := constant S_ .f32 0x7F800000#32
  let main_v15 : FVec F S14336 .f32 := broadcastInDim S14336 ![] bcast_S_S14336 main_cst_4
  let main_v16 : IVec S14336 1 := cmpf .olt main_v14 main_v15
  fn_part1 (F := F) main_v13 main_v16
-- ==== Kernel.lean ====
abbrev S8x32x4096 : Shape := ⟨3, ![8, 32, 4096]⟩
abbrev S4096x14336 : Shape := ⟨2, ![4096, 14336]⟩
abbrev S32x14336 : Shape := ⟨2, ![32, 14336]⟩
abbrev S14336 : Shape := ⟨1, ![14336]⟩
abbrev S256x4096 : Shape := ⟨2, ![256, 4096]⟩
abbrev S1x14336 : Shape := ⟨2, ![1, 14336]⟩
abbrev S256x14336 : Shape := ⟨2, ![256, 14336]⟩
abbrev S1024x1024 : Shape := ⟨2, ![1024, 1024]⟩
abbrev S8x1024 : Shape := ⟨2, ![8, 1024]⟩
abbrev S1x1024 : Shape := ⟨2, ![1, 1024]⟩
abbrev S256x1024 : Shape := ⟨2, ![256, 1024]⟩
abbrev S8x128x1024 : Shape := ⟨3, ![8, 128, 1024]⟩
abbrev S8x1x1024 : Shape := ⟨3, ![8, 1, 1024]⟩
abbrev S8x32x14336 : Shape := ⟨3, ![8, 32, 14336]⟩

abbrev nBuf : Space → Nat
  | .hbm => 12
  | .vmem => 12
  | .smem => 0
  | _ => 0

abbrev bufTy : (tb : Table) → Fin (tcTables nBuf tb) → BufTy
  | .hbm, ⟨0, _⟩ => ⟨S8x32x4096, .f32⟩
  | .hbm, ⟨1, _⟩ => ⟨S4096x14336, .i32⟩
  | .hbm, ⟨2, _⟩ => ⟨S32x14336, .f32⟩
  | .hbm, ⟨3, _⟩ => ⟨S32x14336, .f32⟩
  | .hbm, ⟨4, _⟩ => ⟨S14336, .f32⟩
  | .hbm, ⟨5, _⟩ => ⟨S256x4096, .f32⟩
  | .hbm, ⟨6, _⟩ => ⟨S256x4096, .bf16⟩
  | .hbm, ⟨7, _⟩ => ⟨S32x14336, .bf16⟩
  | .hbm, ⟨8, _⟩ => ⟨S32x14336, .bf16⟩
  | .hbm, ⟨9, _⟩ => ⟨S1x14336, .f32⟩
  | .hbm, ⟨10, _⟩ => ⟨S256x14336, .f32⟩
  | .hbm, ⟨11, _⟩ => ⟨S8x32x14336, .f32⟩
  | .local _ .vmem, ⟨0, _⟩ => ⟨S256x4096, .bf16⟩
  | .local _ .vmem, ⟨1, _⟩ => ⟨S1024x1024, .i32⟩
  | .local _ .vmem, ⟨2, _⟩ => ⟨S1024x1024, .i32⟩
  | .local _ .vmem, ⟨3, _⟩ => ⟨S8x1024, .bf16⟩
  | .local _ .vmem, ⟨4, _⟩ => ⟨S8x1024, .bf16⟩
  | .local _ .vmem, ⟨5, _⟩ => ⟨S8x1024, .bf16⟩
  | .local _ .vmem, ⟨6, _⟩ => ⟨S8x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![14, 4], ![false, false]⟩

def k0_mult1 (i : grid0.Coords) : BitVec 32 :=
  let arg1 : BitVec 32 := BitVec.ofNat 32 (i 1).val
  let c1024_i32 : BitVec 32 := 1024#32
  let v17 : BitVec 32 := Scalar.muli arg1 c1024_i32
  v17
def k0_off1 (i : grid0.Coords) : Fin 2 → Nat :=
  let c0_6 : Index := 0#32
  let arg1 : BitVec 32 := BitVec.ofNat 32 (i 1).val
  let c1024_i32 : BitVec 32 := 1024#32
  let v17 : BitVec 32 := Scalar.muli arg1 c1024_i32
  let v18 : BitVec 32 := v17
  let v19 : Index := Scalar.indexCast v18
  ![0, v19.toNat]
def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x32x4096_S256x4096 : S8x32x4096.ShapeCasts S256x4096
  bitsLt_bf16_f32 : FTy.bits .bf16 < FTy.bits .f32
  shapeCasts_S14336_S1x14336 : S14336.ShapeCasts S1x14336
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x14336_S8x32x14336 : S256x14336.ShapeCasts S8x32x14336
  dot_S256x1024_S1024x1024_S256x1024_1_0_0_1_n_n_wf : DotDims.WF S256x1024 S1024x1024 S256x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x1024.size a ≤ S256x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x14336.size a
  hwx0_1 : ∀ i : grid0.Coords, EltTy.bits .i32 = 32 ∨ (Rect.block (s := S4096x14336) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x14336.size a
  hwx0_2 : ∀ i : grid0.Coords, EltTy.bits .bf16 = 32 ∨ (Rect.block (s := S32x14336) S8x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x14336.size a
  hwx0_3 : ∀ i : grid0.Coords, EltTy.bits .bf16 = 32 ∨ (Rect.block (s := S32x14336) S8x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x14336.size a
  hwx0_4 : ∀ i : grid0.Coords, EltTy.bits .f32 = 32 ∨ (Rect.block (s := S1x14336) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x14336.size a
  hwx0_5 : ∀ i : grid0.Coords, EltTy.bits .f32 = 32 ∨ (Rect.block (s := S256x14336) S256x1024.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v1) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x32x4096 : Shape := ⟨3, ![8, 32, 4096]⟩
abbrev S4096x14336 : Shape := ⟨2, ![4096, 14336]⟩
abbrev S32x14336 : Shape := ⟨2, ![32, 14336]⟩
abbrev S14336 : Shape := ⟨1, ![14336]⟩
abbrev S32x128x14336 : Shape := ⟨3, ![32, 128, 14336]⟩
abbrev S32x1x14336 : Shape := ⟨3, ![32, 1, 14336]⟩
abbrev S8x32x14336 : Shape := ⟨3, ![8, 32, 14336]⟩
abbrev S1x1x14336 : Shape := ⟨3, ![1, 1, 14336]⟩

abbrev nBuf : Space → Nat
  | .hbm => 18
  | .vmem => 0
  | .smem => 0
  | _ => 0

abbrev bufTy : (tb : Table) → Fin (tcTables nBuf tb) → BufTy
  | .hbm, ⟨0, _⟩ => ⟨S8x32x4096, .f32⟩
  | .hbm, ⟨1, _⟩ => ⟨S4096x14336, .i32⟩
  | .hbm, ⟨2, _⟩ => ⟨S32x14336, .f32⟩
  | .hbm, ⟨3, _⟩ => ⟨S32x14336, .f32⟩
  | .hbm, ⟨4, _⟩ => ⟨S14336, .f32⟩
  | .hbm, ⟨5, _⟩ => ⟨S4096x14336, .f32⟩
  | .hbm, ⟨6, _⟩ => ⟨S32x128x14336, .f32⟩
  | .hbm, ⟨7, _⟩ => ⟨S32x1x14336, .f32⟩
  | .hbm, ⟨8, _⟩ => ⟨S32x128x14336, .f32⟩
  | .hbm, ⟨9, _⟩ => ⟨S32x128x14336, .f32⟩
  | .hbm, ⟨10, _⟩ => ⟨S32x1x14336, .f32⟩
  | .hbm, ⟨11, _⟩ => ⟨S32x128x14336, .f32⟩
  | .hbm, ⟨12, _⟩ => ⟨S32x128x14336, .f32⟩
  | .hbm, ⟨13, _⟩ => ⟨S4096x14336, .f32⟩
  | .hbm, ⟨14, _⟩ => ⟨S8x32x14336, .f32⟩
  | .hbm, ⟨15, _⟩ => ⟨S1x1x14336, .f32⟩
  | .hbm, ⟨16, _⟩ => ⟨S8x32x14336, .f32⟩
  | .hbm, ⟨17, _⟩ => ⟨S8x32x14336, .f32⟩
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x14336_S32x128x14336 : S4096x14336.ShapeCasts S32x128x14336
  bcast_S32x14336_S32x1x14336_0_2 : S32x14336.BroadcastsInDim S32x1x14336 (![0, 2] : Fin 2 → Fin S32x1x14336.rank)
  bcast_S32x1x14336_S32x128x14336_0_1_2 : S32x1x14336.BroadcastsInDim S32x128x14336 (![0, 1, 2] : Fin 3 → Fin S32x128x14336.rank)
  shapeCasts_S32x128x14336_S4096x14336 : S32x128x14336.ShapeCasts S4096x14336
  bcast_S14336_S1x1x14336_2 : S14336.BroadcastsInDim S1x1x14336 (![2] : Fin 1 → Fin S1x1x14336.rank)
  bcast_S1x1x14336_S8x32x14336_0_1_2 : S1x1x14336.BroadcastsInDim S8x32x14336 (![0, 1, 2] : Fin 3 → Fin S8x32x14336.rank)
  dot_S8x32x4096_S4096x14336_S8x32x14336_2_0_01_1_n_n_wf : DotDims.WF S8x32x4096 S4096x14336 S8x32x14336 [2] [0] [0, 1] [1] [] []

variable [Facts₀]

def dot_S8x32x4096_S4096x14336_S8x32x14336_2_0_01_1_n_n : DotDims S8x32x4096 S4096x14336 S8x32x14336 where
  lhsContracting := [2]
  rhsContracting := [0]
  lhsNonContracting := [0, 1]
  rhsNonContracting := [1]
  lhsBatch := []
  rhsBatch := []
  wf := dot_S8x32x4096_S4096x14336_S8x32x14336_2_0_01_1_n_n_wf

class Facts : Prop extends Facts₀ where

variable [Facts]
-- ==== Proof.Pieces.lean ====
/-
  What one run of the kernel's body leaves behind, in each of its three control cases, as values.

  The body always loads the tile of integer codes, the blocks of scales and zero points and a 256 × 1024 slice of the
  resident `x` (the columns of the current feature tile), and stores into the scratch the previous running total plus
  the tile's product. At the first feature tile (case A) the previous total is the zero block the body has just
  stored; at the other tiles (cases B and C) it is what the scratch held on entry. At the last feature tile (case C)
  the body also stores, into the output's block, the new total plus the bias row. Each of these stores covers its
  whole buffer, so what the buffer holds afterwards is the stored value itself.
-/
import proofs.«135293_j19292993094040_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The slice of the resident `x` block the body loads at grid coordinates `i`: all 256 rows, the 1024 columns of the
    current feature tile. -/
abbrev xslice (i : grid0.Coords) (x0 : Vec F S256x4096 .bf16) : Vec F S256x1024 .bf16 :=
  View.ld x0 (Rect.unit (s := S256x4096) (k0_off1 i) S256x1024.size (k0_off1_inb i))

/-- Cases B and C: the scratch ends at its entry contents plus the tile's product. -/
theorem scratch_B (c : Dev nD) (i : grid0.Coords) (arg2 : Memref sig .tc .vmem S256x4096 .bf16) (harg2 : arg2.IsWhole) (arg3 : Memref sig .tc .vmem S1024x1024 .i32) (harg3 : arg3.IsWhole) (arg4 : Memref sig .tc .vmem S8x1024 .bf16) (harg4 : arg4.IsWhole) (arg5 : Memref sig .tc .vmem S8x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : ¬cond0_1 i)
    (x0 : Vec F S256x4096 .bf16) (x1 : Vec F S1024x1024 .i32) (x2 : Vec F S8x1024 .bf16) (x3 : Vec F S8x1024 .bf16) (x4 : Vec F S1x1024 .f32) (xs0 : Vec F S256x1024 .f32) :
    sout0_B_0 c i arg2 harg2 arg3 harg3 arg4 harg4 arg5 harg5 arg6 harg6 arg7 harg7 arg8 harg8 hc0 hc1 x0 x1 x2 x3 x4 xs0 = k0_pay2 x1 x2 x3 (xslice i x0) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_run_names
  rw [View.canon_unit_zero hz]
  simp only [View.readAt_eq_ld, harg2.read_unread, harg3.read_unread, harg4.read_unread, harg5.read_unread, harg8.read_unread,
    View.ld_unit_zero (S := S1024x1024) hz, View.ld_unit_zero (S := S8x1024) hz, View.ld_unit_zero (S := S256x1024) hz]

theorem scratch_C (c : Dev nD) (i : grid0.Coords) (arg2 : Memref sig .tc .vmem S256x4096 .bf16) (harg2 : arg2.IsWhole) (arg3 : Memref sig .tc .vmem S1024x1024 .i32) (harg3 : arg3.IsWhole) (arg4 : Memref sig .tc .vmem S8x1024 .bf16) (harg4 : arg4.IsWhole) (arg5 : Memref sig .tc .vmem S8x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : cond0_1 i)
    (x0 : Vec F S256x4096 .bf16) (x1 : Vec F S1024x1024 .i32) (x2 : Vec F S8x1024 .bf16) (x3 : Vec F S8x1024 .bf16) (x4 : Vec F S1x1024 .f32) (xs0 : Vec F S256x1024 .f32) :
    sout0_C_0 c i arg2 harg2 arg3 harg3 arg4 harg4 arg5 harg5 arg6 harg6 arg7 harg7 arg8 harg8 hc0 hc1 x0 x1 x2 x3 x4 xs0 = k0_pay2 x1 x2 x3 (xslice i x0) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_run_names
  rw [View.canon_unit_zero hz]
  simp only [View.readAt_eq_ld, harg2.read_unread, harg3.read_unread, harg4.read_unread, harg5.read_unread, harg8.read_unread,
    View.ld_unit_zero (S := S1024x1024) hz, View.ld_unit_zero (S := S8x1024) hz, View.ld_unit_zero (S := S256x1024) hz]

/-- Case A: the scratch ends at the zero block plus the tile's product. -/
theorem scratch_A (c : Dev nD) (i : grid0.Coords) (arg2 : Memref sig .tc .vmem S256x4096 .bf16) (harg2 : arg2.IsWhole) (arg3 : Memref sig .tc .vmem S1024x1024 .i32) (harg3 : arg3.IsWhole) (arg4 : Memref sig .tc .vmem S8x1024 .bf16) (harg4 : arg4.IsWhole) (arg5 : Memref sig .tc .vmem S8x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : cond0_0 i) (hc1 : ¬cond0_1 i)
    (x0 : Vec F S256x4096 .bf16) (x1 : Vec F S1024x1024 .i32) (x2 : Vec F S8x1024 .bf16) (x3 : Vec F S8x1024 .bf16) (x4 : Vec F S1x1024 .f32) :
    sout0_A_0 c i arg2 harg2 arg3 harg3 arg4 harg4 arg5 harg5 arg6 harg6 arg7 harg7 arg8 harg8 hc0 hc1 x0 x1 x2 x3 x4 = k0_pay2 x1 x2 x3 (xslice i x0) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_run_names
  rw [View.canon_cons_unit_zero (S := S256x1024) hz, View.readCov_unit_zero (S := S256x1024) _ hz]
  simp only [View.readAt_eq_ld, harg2.read_unread, harg3.read_unread, harg4.read_unread, harg5.read_unread,
    View.ld_unit_zero (S := S1024x1024) hz, View.ld_unit_zero (S := S8x1024) hz, View.ld_unit_zero (S := S256x1024) hz]

/-- Case C: the output's block ends at the new running total plus the bias row. -/
theorem output_C (c : Dev nD) (i : grid0.Coords) (arg2 : Memref sig .tc .vmem S256x4096 .bf16) (harg2 : arg2.IsWhole) (arg3 : Memref sig .tc .vmem S1024x1024 .i32) (harg3 : arg3.IsWhole) (arg4 : Memref sig .tc .vmem S8x1024 .bf16) (harg4 : arg4.IsWhole) (arg5 : Memref sig .tc .vmem S8x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : cond0_1 i)
    (x0 : Vec F S256x4096 .bf16) (x1 : Vec F S1024x1024 .i32) (x2 : Vec F S8x1024 .bf16) (x3 : Vec F S8x1024 .bf16) (x4 : Vec F S1x1024 .f32) (xs0 : Vec F S256x1024 .f32) :
    out0_C_5 c i arg2 harg2 arg3 harg3 arg4 harg4 arg5 harg5 arg6 harg6 arg7 harg7 arg8 harg8 hc0 hc1 x0 x1 x2 x3 x4 xs0 = k0_pay3 (k0_pay2 x1 x2 x3 (xslice i x0) xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_run_names
  rw [View.canon_unit_zero hz, View.readCov_unit_zero (S := S256x1024) _ hz]
  simp only [View.readAt_eq_ld, harg2.read_unread, harg3.read_unread, harg4.read_unread, harg5.read_unread, harg6.read_unread, harg8.read_unread,
    View.ld_unit_zero (S := S1024x1024) hz, View.ld_unit_zero (S := S8x1024) hz, View.ld_unit_zero (S := S256x1024) hz, View.ld_unit_zero (S := S1x1024) hz]

end Cert.KernelIdeal.Pieces

end
-- ==== Proof.LibTiledSum.lean ====
/-
  A sum taken tile by tile. A running total that starts at zero and, at step `n`, adds the `n`-th tile of `B`
  consecutive terms of a sequence `f`, holds after `T` steps the sum of the first `T * B` terms, in any commutative
  additive monoid: only associativity of `+` is used, so the statement holds on the extended reals with their
  infinities as it does on the reals. This is the law that joins a contraction accumulated block by block
  (a matrix product whose inner dimension is cut into `T` tiles of `B`) to the same contraction taken as one sum.
-/
import Mathlib.Algebra.BigOperators.Fin

open Finset

namespace Cert.TiledSum

variable {M : Type*} [AddCommMonoid M]

/-- After `n` steps the running total is the sum of the first `n * B` terms. -/
theorem acc_eq_sum_range (B : ℕ) (f : ℕ → M) (acc : ℕ → M) (h0 : acc 0 = 0)
    (hs : ∀ n, acc (n + 1) = acc n + ∑ j : Fin B, f (n * B + j.val)) :
    ∀ n, acc n = ∑ k ∈ range (n * B), f k
  | 0 => by rw [h0, Nat.zero_mul, range_zero, sum_empty]
  | n + 1 => by
    rw [hs n, acc_eq_sum_range B f acc h0 hs n, Nat.succ_mul, sum_range_add,
      Finset.sum_range (fun j => f (n * B + j))]

/-- The same total as a sum over the finite index type of all `T * B` terms. -/
theorem acc_eq_sum_fin (B : ℕ) (f : ℕ → M) (acc : ℕ → M) (h0 : acc 0 = 0)
    (hs : ∀ n, acc (n + 1) = acc n + ∑ j : Fin B, f (n * B + j.val)) (T : ℕ) :
    acc T = ∑ k : Fin (T * B), f k.val := by
  rw [acc_eq_sum_range B f acc h0 hs T, Finset.sum_range]

end Cert.TiledSum
-- ==== Proof.Spec.lean ====
/-
  The mathematics of the two programs, stated once, over the extended reals, with no program in sight.

  Both programs compute, for a row `(a, r)` of `x` (8 × 32 rows of 4096 features) and an output feature `n`,

      y[a, r, n] = Σ_{k < 4096} x[a, r, k] · w[k, n]  +  bias[n],     w[k, n] = q[k, n] · scale[k / 128, n] + zero[k / 128, n],

  the integer code `q[k, n]` read as a signed integer, exactly (`weight`, `out`). The reference takes the sum over
  `k` in one piece. The kernel cuts the 4096 features into four tiles of 1024 and keeps a running total, which starts
  at zero and to which the `T`-th grid step along the feature axis adds the tile `Σ_{j < 1024} x[·, 1024 T + j] · w[1024 T + j, ·]`
  (`tile`, `acc`); after the fourth step it adds the bias. The two agree because a sum taken tile by tile is the
  whole sum (`acc_four`, from the tiled-sum law): only associativity of `+` is involved, so nothing has to be finite.

  The kernel works on `x` flattened to 256 rows and produces a 256 × 14336 array that is reshaped at the end; `out2` is
  what that array holds, `accBlock` / `tileBlock` what a 256 × 1024 block of the running total holds and receives.
-/
import Idealize.ShloMosaic.PureOps.Ideal
import Idealize.ShloMosaic.Lib.ValueIdx
import proofs.«135293_j19292993094040_2_alg».proof.Proof.LibTiledSum

noncomputable section

namespace Cert.QMatmul

open Idealize.ShloMosaic Idealize.ShloMosaic.ValueIdx

/-! ## The contraction, whole and tile by tile -/

/-- A position along the feature axis, from any natural number (the identity below 4096). -/
def kpos (k : ℕ) : Fin 4096 := ⟨k % 4096, Nat.mod_lt _ (by decide)⟩

theorem kpos_val (k : Fin 4096) : kpos k.val = k := Fin.ext (Nat.mod_eq_of_lt k.isLt)

/-- The `k`-th term of the contraction of a row `X` of `x` with a column `W` of the weights. -/
def term (X W : Fin 4096 → EReal) (k : ℕ) : EReal := X (kpos k) * W (kpos k)

/-- The `T`-th tile of 1024 consecutive terms. -/
def tile (X W : Fin 4096 → EReal) (T : ℕ) : EReal := ∑ j : Fin 1024, term X W (T * 1024 + j.val)

/-- The running total after `T` tiles: zero, then one tile more at each step. -/
def acc (X W : Fin 4096 → EReal) : ℕ → EReal
  | 0 => 0
  | T + 1 => acc X W T + tile X W T

/-- After four tiles the running total is the whole contraction. -/
theorem acc_four (X W : Fin 4096 → EReal) : acc X W 4 = ∑ k : Fin 4096, X k * W k := by
  have h := Cert.TiledSum.acc_eq_sum_fin 1024 (term X W) (acc X W) rfl (fun _ => rfl) 4
  rw [h]
  show ∑ k : Fin 4096, term X W k.val = _
  exact Finset.sum_congr rfl fun k _ => by unfold term; rw [kpos_val]

/-! ## The weights and the results -/

/-- The group of 128 consecutive features that feature `k` belongs to. -/
def grp (k : Fin 4096) : Fin 32 := ⟨k.val / 128, by have := k.isLt; omega⟩

/-- Column `n` of the dequantized weights: the integer code, exactly, times its group's scale plus its group's zero point. -/
def weight (q : (⟨2, ![4096, 14336]⟩ : Shape).Idx → BitVec 32) (s z : (⟨2, ![32, 14336]⟩ : Shape).Idx → EReal)
    (n : Fin 14336) (k : Fin 4096) : EReal :=
  (((q (ix2 k n)).toInt : ℝ) : EReal) * s (ix2 (grp k) n) + z (ix2 (grp k) n)

/-- The result at row `(a, r)` and output feature `n`. -/
def out (x : (⟨3, ![8, 32, 4096]⟩ : Shape).Idx → EReal) (q : (⟨2, ![4096, 14336]⟩ : Shape).Idx → BitVec 32)
    (s z : (⟨2, ![32, 14336]⟩ : Shape).Idx → EReal) (b : (⟨1, ![14336]⟩ : Shape).Idx → EReal)
    (a : Fin 8) (r : Fin 32) (n : Fin 14336) : EReal :=
  (∑ k : Fin 4096, x (ix3 a r k) * weight q s z n k) + b (ix1 n)

/-- The whole result array. -/
def G (x : (⟨3, ![8, 32, 4096]⟩ : Shape).Idx → EReal) (q : (⟨2, ![4096, 14336]⟩ : Shape).Idx → BitVec 32)
    (s z : (⟨2, ![32, 14336]⟩ : Shape).Idx → EReal) (b : (⟨1, ![14336]⟩ : Shape).Idx → EReal) :
    (⟨3, ![8, 32, 14336]⟩ : Shape).Idx → EReal :=
  fun i => out x q s z b (i 0 : Fin 8) (i 1 : Fin 32) (i 2 : Fin 14336)

/-- The kernel's 256 × 14336 output at row `r` of the flattened `x` and output feature `n`: the running total after
    four tiles plus the bias (read from its 1 × 14336 form). -/
def out2 (X2 : (⟨2, ![256, 4096]⟩ : Shape).Idx → EReal) (q : (⟨2, ![4096, 14336]⟩ : Shape).Idx → BitVec 32)
    (s z : (⟨2, ![32, 14336]⟩ : Shape).Idx → EReal) (B2 : (⟨2, ![1, 14336]⟩ : Shape).Idx → EReal)
    (r : Fin 256) (n : Fin 14336) : EReal :=
  acc (fun k => X2 (ix2 r k)) (weight q s z n) 4 + B2 (ix2 (0 : Fin 1) n)

/-- The kernel's whole 256 × 14336 output array. -/
def G2 (X2 : (⟨2, ![256, 4096]⟩ : Shape).Idx → EReal) (q : (⟨2, ![4096, 14336]⟩ : Shape).Idx → BitVec 32)
    (s z : (⟨2, ![32, 14336]⟩ : Shape).Idx → EReal) (B2 : (⟨2, ![1, 14336]⟩ : Shape).Idx → EReal) :
    (⟨2, ![256, 14336]⟩ : Shape).Idx → EReal :=
  fun i => out2 X2 q s z B2 (i 0 : Fin 256) (i 1 : Fin 14336)

/-- The output feature at lane `nn` of the `j`-th block of 1024 output features. -/
def colOf (j : ℕ) (nn : Fin 1024) : Fin 14336 := ⟨(j * 1024 + nn.val) % 14336, Nat.mod_lt _ (by decide)⟩

theorem colOf_val (j : ℕ) (nn : Fin 1024) (hj : j < 14) : (colOf j nn).val = j * 1024 + nn.val := by
  have := nn.isLt
  exact Nat.mod_eq_of_lt (by omega)

/-- The 256 × 1024 block of running totals for output-feature block `j` after `T` tiles. -/
def accBlock (X2 : (⟨2, ![256, 4096]⟩ : Shape).Idx → EReal) (q : (⟨2, ![4096, 14336]⟩ : Shape).Idx → BitVec 32)
    (s z : (⟨2, ![32, 14336]⟩ : Shape).Idx → EReal) (j T : ℕ) : (⟨2, ![256, 1024]⟩ : Shape).Idx → EReal :=
  fun y => acc (fun k => X2 (ix2 (y 0 : Fin 256) k)) (weight q s z (colOf j (y 1 : Fin 1024))) T

/-- The 256 × 1024 block of `T`-th tiles for output-feature block `j`: what step `T` adds. -/
def tileBlock (X2 : (⟨2, ![256, 4096]⟩ : Shape).Idx → EReal) (q : (⟨2, ![4096, 14336]⟩ : Shape).Idx → BitVec 32)
    (s z : (⟨2, ![32, 14336]⟩ : Shape).Idx → EReal) (j T : ℕ) : (⟨2, ![256, 1024]⟩ : Shape).Idx → EReal :=
  fun y => tile (fun k => X2 (ix2 (y 0 : Fin 256) k)) (weight q s z (colOf j (y 1 : Fin 1024))) T

theorem accBlock_zero (X2 : (⟨2, ![256, 4096]⟩ : Shape).Idx → EReal) (q : (⟨2, ![4096, 14336]⟩ : Shape).Idx → BitVec 32)
    (s z : (⟨2, ![32, 14336]⟩ : Shape).Idx → EReal) (j : ℕ) : accBlock X2 q s z j 0 = fun _ => 0 := rfl

theorem accBlock_succ (X2 : (⟨2, ![256, 4096]⟩ : Shape).Idx → EReal) (q : (⟨2, ![4096, 14336]⟩ : Shape).Idx → BitVec 32)
    (s z : (⟨2, ![32, 14336]⟩ : Shape).Idx → EReal) (j T : ℕ) :
    accBlock X2 q s z j (T + 1) = fun y => accBlock X2 q s z j T y + tileBlock X2 q s z j T y := rfl

end Cert.QMatmul

end
-- ==== Proof.Layout.lean ====
/-
  The re-layouts of the kernel's body, read at explicit coordinates. The body views its 1024 × 1024 tile of integer
  codes as 8 groups of 128 rows (row `kk` is row `kk % 128` of group `kk / 128`), views the 8 × 1024 scales and zero
  points as 8 × 1 × 1024 and repeats them along the 128 rows of their group, and repeats the 1 × 1024 bias along the
  256 rows of the output block. Each lemma says which element of the operand an element of the re-laid value is: a
  reshape keeps the row-major position, a broadcast reads coordinate 0 on the operand's unit axes.
-/
import Idealize.ShloMosaic.Lib.Pipeline.Value
import Idealize.ShloMosaic.Lib.ValueIdx

noncomputable section

namespace Cert.QMatmul

open Idealize.ShloMosaic Idealize.ShloMosaic.ValueIdx

variable {α : Type}

/-- The group (of 128 rows) of row `kk` of a 1024-row tile, and the row's place in its group. -/
def sub (kk : Fin 1024) : Fin 8 := ⟨kk.val / 128, by have := kk.isLt; omega⟩
def lane (kk : Fin 1024) : Fin 128 := ⟨kk.val % 128, Nat.mod_lt _ (by decide)⟩

/-- [1024, 1024] viewed as [8, 128, 1024]: element (group of `kk`, place of `kk`, n) is element (kk, n). -/
theorem cast_rows_to_groups (v : (⟨2, ![1024, 1024]⟩ : Shape).Idx → α)
    (h : (⟨2, ![1024, 1024]⟩ : Shape).ShapeCasts ⟨3, ![8, 128, 1024]⟩) (kk n : Fin 1024) :
    shapeCast ⟨3, ![8, 128, 1024]⟩ v h (ix3 (sub kk) (lane kk) n) = v (ix2 kk n) :=
  shapeCast_apply v h (ix3 (sub kk) (lane kk) n) (ix2 kk n) (by
    rw [Shape.rowMajor_val_two, Shape.rowMajor_val_three]
    show kk.val * 1024 + n.val = ((kk.val / 128) * 128 + kk.val % 128) * 1024 + n.val
    omega)

/-- [8, 128, 1024] viewed as [1024, 1024]: element (kk, n) is element (group of `kk`, place of `kk`, n). -/
theorem cast_groups_to_rows (v : (⟨3, ![8, 128, 1024]⟩ : Shape).Idx → α)
    (h : (⟨3, ![8, 128, 1024]⟩ : Shape).ShapeCasts ⟨2, ![1024, 1024]⟩) (kk n : Fin 1024) :
    shapeCast ⟨2, ![1024, 1024]⟩ v h (ix2 kk n) = v (ix3 (sub kk) (lane kk) n) :=
  shapeCast_apply v h (ix2 kk n) (ix3 (sub kk) (lane kk) n) (by
    rw [Shape.rowMajor_val_two, Shape.rowMajor_val_three]
    show ((kk.val / 128) * 128 + kk.val % 128) * 1024 + n.val = kk.val * 1024 + n.val
    omega)

/-- [8, 1024] viewed as [8, 1, 1024]: element (g, 0, n) is element (g, n). -/
theorem cast_add_middle_unit (v : (⟨2, ![8, 1024]⟩ : Shape).Idx → α)
    (h : (⟨2, ![8, 1024]⟩ : Shape).ShapeCasts ⟨3, ![8, 1, 1024]⟩) (g : Fin 8) (u : Fin 1) (n : Fin 1024) :
    shapeCast ⟨3, ![8, 1, 1024]⟩ v h (ix3 g u n) = v (ix2 g n) :=
  shapeCast_apply v h (ix3 g u n) (ix2 g n) (by
    rw [Shape.rowMajor_val_two, Shape.rowMajor_val_three]
    show g.val * 1024 + n.val = (g.val * 1 + u.val) * 1024 + n.val
    have := u.isLt
    omega)

/-- [8, 1, 1024] repeated along 128 rows: element (g, l, n) is element (g, 0, n). -/
theorem bcast_along_group (v : (⟨3, ![8, 1, 1024]⟩ : Shape).Idx → α)
    (h : (⟨3, ![8, 1, 1024]⟩ : Shape).Broadcasts ⟨3, ![8, 128, 1024]⟩) (g : Fin 8) (l : Fin 128) (n : Fin 1024) :
    broadcastTo ⟨3, ![8, 128, 1024]⟩ v h (ix3 g l n) = v (ix3 g (0 : Fin 1) n) :=
  broadcastTo_apply v h (ix3 g l n) (ix3 g (0 : Fin 1) n) (fun a => match a with
    | ⟨0, _⟩ => by show g.val = if (8 : Nat) = 1 then 0 else g.val; rw [if_neg (by decide)]
    | ⟨1, _⟩ => by show (0 : Nat) = if (1 : Nat) = 1 then 0 else l.val; rw [if_pos rfl]
    | ⟨2, _⟩ => by show n.val = if (1024 : Nat) = 1 then 0 else n.val; rw [if_neg (by decide)])

/-- [1, 1024] repeated along 256 rows: element (r, n) is element (0, n). -/
theorem bcast_along_rows (v : (⟨2, ![1, 1024]⟩ : Shape).Idx → α)
    (h : (⟨2, ![1, 1024]⟩ : Shape).Broadcasts ⟨2, ![256, 1024]⟩) (r : Fin 256) (n : Fin 1024) :
    broadcastTo ⟨2, ![256, 1024]⟩ v h (ix2 r n) = v (ix2 (0 : Fin 1) n) :=
  broadcastTo_apply v h (ix2 r n) (ix2 (0 : Fin 1) n) (fun a => match a with
    | ⟨0, _⟩ => by show (0 : Nat) = if (1 : Nat) = 1 then 0 else r.val; rw [if_pos rfl]
    | ⟨1, _⟩ => by show n.val = if (1024 : Nat) = 1 then 0 else n.val; rw [if_neg (by decide)])

end Cert.QMatmul

end
-- ==== Proof.Blocks.lean ====
/-
  The blocks the pipeline hands the body at grid point `t`, element by element, as elements of the arrays the region
  found. Point `t` is output-feature block `t / 4` and feature tile `t % 4`. The 1024 × 1024 tile of integer codes is
  rows `1024 (t % 4) + kk`, columns `1024 (t / 4) + nn` of the code matrix; the 8 × 1024 blocks of scales and zero points
  are groups `8 (t % 4) + g` — so row `kk` of the tile meets the group of feature `1024 (t % 4) + kk` —; the bias block is
  columns `1024 (t / 4) + nn`; and `x` is resident whole, the body slicing out columns `1024 (t % 4) + kk` itself.
-/
import proofs.«135293_j19292993094040_2_alg».proof.Proof.Gen.KernelIdeal.Frame
import proofs.«135293_j19292993094040_2_alg».proof.Proof.Pieces
import proofs.«135293_j19292993094040_2_alg».proof.Proof.Spec
import proofs.«135293_j19292993094040_2_alg».proof.Proof.Layout
import Idealize.ShloMosaic.Lib.Pipeline.Value

noncomputable section

namespace Cert.KernelIdeal.Blocks

open Cert.KernelIdeal Cert.KernelIdeal.Gen Cert.KernelIdeal.Pieces Cert.QMatmul
open Idealize.ShloMosaic Idealize.ShloMosaic.TcCoe Idealize.ShloMosaic.ValueIdx Idealize.SL.Sem

variable (m : (ℓ : Loc nD τ sig) → Buf (Elt Ideal) ℓ)

/-! ## The arrays as the region finds them -/

/-- `x` flattened to 256 rows (in bf16 form: the same numbers), -/
def X2 (c : Dev nD) : S256x4096.Idx → EReal := V m c main_v1
/-- the integer codes, -/
def Q (c : Dev nD) : S4096x14336.Idx → BitVec 32 := V m c main_arg1
/-- the scales, -/
def Sc (c : Dev nD) : S32x14336.Idx → EReal := V m c main_v2
/-- the zero points, -/
def Zp (c : Dev nD) : S32x14336.Idx → EReal := V m c main_v3
/-- and the bias as a 1 × 14336 row. -/
def B2 (c : Dev nD) : S1x14336.Idx → EReal := V m c main_v4

/-! ## The index maps, decided over the grid -/

theorem idx_facts : ∀ t : Fin cfg0.N,
    win0_0.index t (0 : Fin 2) = 0 ∧ win0_0.index t (1 : Fin 2) = 0
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = 0 ∧ win0_4.index t (1 : Fin 2) = t.val / 4
    ∧ win0_5.index t (0 : Fin 2) = 0 ∧ win0_5.index t (1 : Fin 2) = t.val / 4
    ∧ k0_off1 (grid0.coords t) (0 : Fin 2) = 0 ∧ k0_off1 (grid0.coords t) (1 : Fin 2) = t.val % 4 * 1024 :=
  (by decide +kernel : ∀ t : Fin grid0.N, _)

/-! ## The blocks -/

/-- The tile of integer codes. -/
theorem codes_block (c : Dev nD) (t : Fin cfg0.N) (kk nn : Fin 1024) :
    (iblk m c 1 t : Vec Ideal S1024x1024 .i32) (ix2 kk nn)
      = Q m c (ix2 (kpos (t.val % 4 * 1024 + kk.val)) (colOf (t.val / 4) nn)) := by
  have hN : t.val < 56 := lt_of_lt_of_eq t.isLt (show cfg0.N = 56 from N_0)
  obtain ⟨-, -, e0, e1, -⟩ := idx_facts t
  have h : ((cfg0.win 1).blk t).view.emb (ix2 kk nn) = ix2 (kpos (t.val % 4 * 1024 + kk.val)) (colOf (t.val / 4) nn) := by
    funext a; apply Fin.ext
    match a with
    | ⟨0, _⟩ => show win0_1.index t (0 : Fin 2) * 1024 + 1 * kk.val = (t.val % 4 * 1024 + kk.val) % 4096; have := kk.isLt; omega
    | ⟨1, _⟩ => show win0_1.index t (1 : Fin 2) * 1024 + 1 * nn.val = (t.val / 4 * 1024 + nn.val) % 14336; have := nn.isLt; omega
  unfold Q
  show V m c main_arg1 (((cfg0.win 1).blk t).view.emb (ix2 kk nn)) = _
  rw [h]

/-- The block of scales, at the group of tile row `kk`. -/
theorem scales_block (c : Dev nD) (t : Fin cfg0.N) (kk nn : Fin 1024) :
    (iblk m c 2 t : FVec Ideal S8x1024 .bf16) (ix2 (sub kk) nn)
      = Sc m c (ix2 (grp (kpos (t.val % 4 * 1024 + kk.val))) (colOf (t.val / 4) nn)) := by
  have hN : t.val < 56 := lt_of_lt_of_eq t.isLt (show cfg0.N = 56 from N_0)
  obtain ⟨-, -, -, -, e0, e1, -⟩ := idx_facts t
  have h : ((cfg0.win 2).blk t).view.emb (ix2 (sub kk) nn) = ix2 (grp (kpos (t.val % 4 * 1024 + kk.val))) (colOf (t.val / 4) nn) := by
    funext a; apply Fin.ext
    match a with
    | ⟨0, _⟩ => show win0_2.index t (0 : Fin 2) * 8 + 1 * (kk.val / 128) = (t.val % 4 * 1024 + kk.val) % 4096 / 128; have := kk.isLt; omega
    | ⟨1, _⟩ => show win0_2.index t (1 : Fin 2) * 1024 + 1 * nn.val = (t.val / 4 * 1024 + nn.val) % 14336; have := nn.isLt; omega
  unfold Sc
  show V m c main_v2 (((cfg0.win 2).blk t).view.emb (ix2 (sub kk) nn)) = _
  rw [h]

/-- The block of zero points, at the group of tile row `kk`. -/
theorem zeros_block (c : Dev nD) (t : Fin cfg0.N) (kk nn : Fin 1024) :
    (iblk m c 3 t : FVec Ideal S8x1024 .bf16) (ix2 (sub kk) nn)
      = Zp m c (ix2 (grp (kpos (t.val % 4 * 1024 + kk.val))) (colOf (t.val / 4) nn)) := by
  have hN : t.val < 56 := lt_of_lt_of_eq t.isLt (show cfg0.N = 56 from N_0)
  obtain ⟨-, -, -, -, -, -, e0, e1, -⟩ := idx_facts t
  have h : ((cfg0.win 3).blk t).view.emb (ix2 (sub kk) nn) = ix2 (grp (kpos (t.val % 4 * 1024 + kk.val))) (colOf (t.val / 4) nn) := by
    funext a; apply Fin.ext
    match a with
    | ⟨0, _⟩ => show win0_3.index t (0 : Fin 2) * 8 + 1 * (kk.val / 128) = (t.val % 4 * 1024 + kk.val) % 4096 / 128; have := kk.isLt; omega
    | ⟨1, _⟩ => show win0_3.index t (1 : Fin 2) * 1024 + 1 * nn.val = (t.val / 4 * 1024 + nn.val) % 14336; have := nn.isLt; omega
  unfold Zp
  show V m c main_v3 (((cfg0.win 3).blk t).view.emb (ix2 (sub kk) nn)) = _
  rw [h]

/-- The block of the bias row. -/
theorem bias_block (c : Dev nD) (t : Fin cfg0.N) (nn : Fin 1024) :
    (iblk m c 4 t : FVec Ideal S1x1024 .f32) (ix2 (0 : Fin 1) nn) = B2 m c (ix2 (0 : Fin 1) (colOf (t.val / 4) nn)) := by
  have hN : t.val < 56 := lt_of_lt_of_eq t.isLt (show cfg0.N = 56 from N_0)
  obtain ⟨-, -, -, -, -, -, -, -, e0, e1, -⟩ := idx_facts t
  have h : ((cfg0.win 4).blk t).view.emb (ix2 (0 : Fin 1) nn) = ix2 (0 : Fin 1) (colOf (t.val / 4) nn) := by
    funext a; apply Fin.ext
    match a with
    | ⟨0, _⟩ => show win0_4.index t (0 : Fin 2) * 1 + 1 * 0 = 0; omega
    | ⟨1, _⟩ => show win0_4.index t (1 : Fin 2) * 1024 + 1 * nn.val = (t.val / 4 * 1024 + nn.val) % 14336; have := nn.isLt; omega
  unfold B2
  show V m c main_v4 (((cfg0.win 4).blk t).view.emb (ix2 (0 : Fin 1) nn)) = _
  rw [h]

/-- The columns of the resident `x` the body slices out at point `t`. -/
theorem x_slice (c : Dev nD) (t : Fin cfg0.N) (r : Fin 256) (kk : Fin 1024) :
    (xslice (grid0.coords t) (iblk m c 0 t) : FVec Ideal S256x1024 .bf16) (ix2 r kk)
      = X2 m c (ix2 r (kpos (t.val % 4 * 1024 + kk.val))) := by
  obtain ⟨e0, e1, -, -, -, -, -, -, -, -, -, -, o0, o1⟩ := idx_facts t
  have h : ((cfg0.win 0).blk t).view.emb ((Rect.unit (s := S256x4096) (k0_off1 (grid0.coords t)) S256x1024.size (k0_off1_inb (grid0.coords t))).idx (ix2 r kk))
      = ix2 r (kpos (t.val % 4 * 1024 + kk.val)) := by
    funext a; apply Fin.ext
    match a with
    | ⟨0, _⟩ => show win0_0.index t (0 : Fin 2) * 256 + 1 * (k0_off1 (grid0.coords t) (0 : Fin 2) + 1 * r.val) = r.val; omega
    | ⟨1, _⟩ => show win0_0.index t (1 : Fin 2) * 4096 + 1 * (k0_off1 (grid0.coords t) (1 : Fin 2) + 1 * kk.val) = (t.val % 4 * 1024 + kk.val) % 4096; have := kk.isLt; omega
  unfold X2
  show V m c main_v1 (((cfg0.win 0).blk t).view.emb ((Rect.unit (s := S256x4096) (k0_off1 (grid0.coords t)) S256x1024.size (k0_off1_inb (grid0.coords t))).idx (ix2 r kk))) = _
  rw [h]

end Cert.KernelIdeal.Blocks

end
-- ==== Proof.Payload.lean ====
/-
  What the kernel's body stores, read at one element, over the extended reals.

  The body's three stores write: the zero block (at the first feature tile); the running total plus this tile's
  product `x_tile · w_tile`, where the 1024 × 1024 weight tile is dequantized in place — row `kk` of the tile is the
  integer codes of that row times the scale, plus the zero point, of the row's group `kk / 128` among the tile's 8
  groups —; and, at the last feature tile, the running total plus the bias row. A matrix product into a zero
  accumulator is, at exact arithmetic, the plain sum over the contracted index of the products of the operands'
  elements; changes of float format are the identity and an integer converts to itself.
-/
import proofs.«135293_j19292993094040_2_alg».proof.Proof.Gen.KernelIdeal.Skeleton
import proofs.«135293_j19292993094040_2_alg».proof.Proof.Layout
import Idealize.ShloMosaic.PureOps.Ideal.Laws

noncomputable section

namespace Cert.KernelIdeal.Pay

open Cert.KernelIdeal Cert.KernelIdeal.Gen Cert.QMatmul Idealize.ShloMosaic Idealize.ShloMosaic.ValueIdx

/-- The left operand's row is the output's row, whatever the contracted position; -/
theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

/-- the right operand's column is the output's column. -/
theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The product of a 256 × 1024 block with a 1024 × 1024 block into a zero accumulator, at row `r` and column `nn`:
    the sum over the 1024 contracted positions. -/
theorem matmul_tile_apply (lhs : FVec Ideal S256x1024 .bf16) (rhs : FVec Ideal S1024x1024 .bf16) (r : Fin 256) (nn : Fin 1024) :
    matmul dot_S256x1024_S1024x1024_S256x1024_1_0_0_1_n_n none lhs rhs (constant (F := Ideal) S256x1024 .f32 0x00000000#32) (ix2 r nn)
      = ∑ kk : Fin 1024, lhs (ix2 r kk) * rhs (ix2 kk nn) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r nn)
      ((contrEquiv1 dot_S256x1024_S1024x1024_S256x1024_1_0_0_1_n_n 1024 rfl rfl).symm k) = ix2 r k :=
    funext fun a => Fin.ext (by
      match a with
      | ⟨0, _⟩ => exact lhs_row _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 r nn)
      ((contrEquiv1 dot_S256x1024_S1024x1024_S256x1024_1_0_0_1_n_n 1024 rfl rfl).symm k) = ix2 k nn :=
    funext fun a => Fin.ext (by
      match a with
      | ⟨0, _⟩ => exact (dot_S256x1024_S1024x1024_S256x1024_1_0_0_1_n_n.rhsIdx_val_of_single rfl _ _).trans hk
      | ⟨1, _⟩ => exact rhs_col _ _)
  rw [el, er]

/-- The dequantized weight tile at row `kk` and column `nn`, from the tile of integer codes `x1` and the 8 × 1024
    blocks of scales `x2` and zero points `x3`. -/
def wtile (x1 : Vec Ideal S1024x1024 .i32) (x2 x3 : FVec Ideal S8x1024 .bf16) : FVec Ideal S1024x1024 .bf16 :=
  shapeCast S1024x1024
    (addf (mulf (shapeCast S8x128x1024 (sitofp .bf16 x1) shapeCasts_S1024x1024_S8x128x1024)
        (broadcastTo S8x128x1024 (shapeCast S8x1x1024 (shapeCast S8x1024 x2 shapeCasts_S8x1024_S8x1024) shapeCasts_S8x1024_S8x1x1024) broadcasts_S8x1x1024_S8x128x1024))
      (broadcastTo S8x128x1024 (shapeCast S8x1x1024 (shapeCast S8x1024 x3 shapeCasts_S8x1024_S8x1024) shapeCasts_S8x1024_S8x1x1024) broadcasts_S8x1x1024_S8x128x1024))
    shapeCasts_S8x128x1024_S1024x1024

theorem wtile_apply (x1 : Vec Ideal S1024x1024 .i32) (x2 x3 : FVec Ideal S8x1024 .bf16) (kk nn : Fin 1024) :
    wtile x1 x2 x3 (ix2 kk nn)
      = (((x1 (ix2 kk nn)).toInt : ℝ) : EReal) * x2 (ix2 (sub kk) nn) + x3 (ix2 (sub kk) nn) := by
  unfold wtile
  rw [cast_groups_to_rows, addf_apply, mulf_apply, cast_rows_to_groups, bcast_along_group, bcast_along_group,
    cast_add_middle_unit, cast_add_middle_unit, shapeCast_self, shapeCast_self]
  rfl

/-- The first store's payload: the zero block. -/
theorem pay1_apply (y : S256x1024.Idx) : k0_pay1 (F := Ideal) y = 0 := by
  unfold k0_pay1
  rw [shapeCast_self]
  exact Ideal.ofBits_zero_f32

/-- The second store's payload is the running total plus the product of the `x` tile with the dequantized weight tile. -/
theorem pay2_eq (x1 : Vec Ideal S1024x1024 .i32) (x2 x3 : FVec Ideal S8x1024 .bf16) (x20 : FVec Ideal S256x1024 .bf16)
    (v22 : FVec Ideal S256x1024 .f32) :
    k0_pay2 (F := Ideal) x1 x2 x3 x20 v22
      = addf v22 (matmul dot_S256x1024_S1024x1024_S256x1024_1_0_0_1_n_n none x20 (wtile x1 x2 x3) (constant (F := Ideal) S256x1024 .f32 0x00000000#32)) := by
  unfold k0_pay2 wtile
  simp only [shapeCast_self]

/-- The second store's payload at row `r` and column `nn` of the block. -/
theorem pay2_apply (x1 : Vec Ideal S1024x1024 .i32) (x2 x3 : FVec Ideal S8x1024 .bf16) (x20 : FVec Ideal S256x1024 .bf16)
    (v22 : FVec Ideal S256x1024 .f32) (r : Fin 256) (nn : Fin 1024) :
    k0_pay2 (F := Ideal) x1 x2 x3 x20 v22 (ix2 r nn)
      = v22 (ix2 r nn) + ∑ kk : Fin 1024, x20 (ix2 r kk)
          * ((((x1 (ix2 kk nn)).toInt : ℝ) : EReal) * x2 (ix2 (sub kk) nn) + x3 (ix2 (sub kk) nn)) := by
  rw [pay2_eq, addf_apply, matmul_tile_apply]
  exact congrArg (v22 (ix2 r nn) + ·) (Finset.sum_congr rfl fun kk _ => by rw [wtile_apply])

/-- The third store's payload at row `r` and column `nn`: the running total plus the bias of the column. -/
theorem pay3_apply (v31 : FVec Ideal S256x1024 .f32) (v32 : FVec Ideal S1x1024 .f32) (r : Fin 256) (nn : Fin 1024) :
    k0_pay3 (F := Ideal) v31 v32 (ix2 r nn) = v31 (ix2 r nn) + v32 (ix2 (0 : Fin 1) nn) := by
  unfold k0_pay3
  rw [addf_apply, bcast_along_rows, shapeCast_self]

end Cert.KernelIdeal.Pay

end
-- ==== Proof.Step.lean ====
/-
  One grid step, as arithmetic. If the blocks the body loads are the expected pieces of the arrays — the tile of integer
  codes, scales and zero points belonging to feature tile `T` and output-feature block `j`, and the columns of `x` of
  feature tile `T` — then what the body stores into the scratch is the previous running total plus the `T`-th tile of
  the contraction, element by element; and what it stores into the output's block at the last step is the total plus the
  bias. The hypotheses are stated on elements, so the lemma knows nothing of how the blocks were fetched.
-/
import proofs.«135293_j19292993094040_2_alg».proof.Proof.Payload
import proofs.«135293_j19292993094040_2_alg».proof.Proof.Spec

noncomputable section

namespace Cert.KernelIdeal.Pay

open Cert.KernelIdeal Cert.KernelIdeal.Gen Cert.QMatmul Idealize.ShloMosaic Idealize.ShloMosaic.ValueIdx

/-- The scratch store of step `T` on output-feature block `j`: previous total plus the step's tile. -/
theorem step_of_blocks (X2 : S256x4096.Idx → EReal) (Q : S4096x14336.Idx → BitVec 32) (S Z : S32x14336.Idx → EReal) (j T : ℕ)
    (x1 : Vec Ideal S1024x1024 .i32) (x2 x3 : FVec Ideal S8x1024 .bf16) (x20 : FVec Ideal S256x1024 .bf16)
    (prev : FVec Ideal S256x1024 .f32)
    (h1 : ∀ kk nn : Fin 1024, x1 (ix2 kk nn) = Q (ix2 (kpos (T * 1024 + kk.val)) (colOf j nn)))
    (h2 : ∀ kk nn : Fin 1024, x2 (ix2 (sub kk) nn) = S (ix2 (grp (kpos (T * 1024 + kk.val))) (colOf j nn)))
    (h3 : ∀ kk nn : Fin 1024, x3 (ix2 (sub kk) nn) = Z (ix2 (grp (kpos (T * 1024 + kk.val))) (colOf j nn)))
    (h20 : ∀ (r : Fin 256) (kk : Fin 1024), x20 (ix2 r kk) = X2 (ix2 r (kpos (T * 1024 + kk.val)))) :
    k0_pay2 (F := Ideal) x1 x2 x3 x20 prev = fun y => prev y + tileBlock X2 Q S Z j T y := by
  funext y
  obtain ⟨r, nn, rfl⟩ : ∃ (r : Fin 256) (nn : Fin 1024), y = ix2 r nn := ⟨y 0, y 1, eq_ix2 y⟩
  rw [pay2_apply]
  refine congrArg (prev (ix2 r nn) + ·) ?_
  unfold tileBlock tile term weight
  refine Finset.sum_congr rfl fun kk _ => ?_
  rw [h20, h1, h2, h3]

/-- The output store of the last step: the total plus the bias of the block's columns. -/
theorem output_of_blocks (B2 : S1x14336.Idx → EReal) (j : ℕ) (total : FVec Ideal S256x1024 .f32) (x4 : FVec Ideal S1x1024 .f32)
    (h4 : ∀ nn : Fin 1024, x4 (ix2 (0 : Fin 1) nn) = B2 (ix2 (0 : Fin 1) (colOf j nn))) :
    k0_pay3 (F := Ideal) total x4 = fun y => total y + B2 (ix2 (0 : Fin 1) (colOf j (y 1 : Fin 1024))) := by
  funext y
  obtain ⟨r, nn, rfl⟩ : ∃ (r : Fin 256) (nn : Fin 1024), y = ix2 r nn := ⟨y 0, y 1, eq_ix2 y⟩
  rw [pay3_apply, h4]

end Cert.KernelIdeal.Pay

end
-- ==== Proof.Invariant.lean ====
/-
  The running total, point by point. After the body has run at grid point `n` — output-feature block `n / 4`, feature
  tile `n % 4` — the scratch holds the running total of that block after `n % 4 + 1` tiles: at the first tile of a block
  the body starts again from the zero block, at the others it adds to what the point before left, which belongs to the
  same block because the feature tile is the fast grid axis. At the last tile the output's block receives the total
  after all four tiles plus the bias. By induction on the point; the grid is never enumerated.
-/
import proofs.«135293_j19292993094040_2_alg».proof.Proof.Blocks
import proofs.«135293_j19292993094040_2_alg».proof.Proof.Step

noncomputable section

namespace Cert.KernelIdeal.Inv

open Cert.KernelIdeal Cert.KernelIdeal.Gen Cert.KernelIdeal.Pieces Cert.KernelIdeal.Blocks Cert.KernelIdeal.Pay Cert.QMatmul
open Idealize.ShloMosaic Idealize.ShloMosaic.TcCoe Idealize.ShloMosaic.ValueIdx Idealize.SL.Sem

variable (m : (ℓ : Loc nD τ sig) → Buf (Elt Ideal) ℓ)

/-! ## What a point leaves, case by case, over what the point before left -/

/-- First tile of a block: the scratch is left at the zero block plus the tile's product. -/
theorem scratch_first (c : Dev nD) (t : Fin cfg0.N) (h0 : t.val % 4 = 0) (h1 : ¬t.val % 4 = 3) :
    (outsAt0 m c t.val t.isLt).2 = k0_pay2 (F := Ideal) (iblk m c 1 t) (iblk m c 2 t) (iblk m c 3 t) (xslice (grid0.coords t) (iblk m c 0 t)) (k0_pay1 (F := Ideal)) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => h1 ((hcond0_1 t).mp hh)) (iblk m c 0 t) (iblk m c 1 t) (iblk m c 2 t) (iblk m c 3 t) (iblk m c 4 t)

/-- A middle tile: the scratch is left at what the point before left plus the tile's product. -/
theorem scratch_middle (c : Dev nD) (t : Fin cfg0.N) (h0 : ¬t.val % 4 = 0) (h1 : ¬t.val % 4 = 3) :
    (outsAt0 m c t.val t.isLt).2 = k0_pay2 (F := Ideal) (iblk m c 1 t) (iblk m c 2 t) (iblk m c 3 t) (xslice (grid0.coords t) (iblk m c 0 t)) (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) (iblk m c 0 t) (iblk m c 1 t) (iblk m c 2 t) (iblk m c 3 t) (iblk m c 4 t) (outsAt0 m c (t.val - 1) (Nat.lt_of_le_of_lt (Nat.sub_le _ _) t.isLt)).2

/-- The last tile: the same for the scratch, -/
theorem scratch_last (c : Dev nD) (t : Fin cfg0.N) (h0 : ¬t.val % 4 = 0) (h3 : t.val % 4 = 3) :
    (outsAt0 m c t.val t.isLt).2 = k0_pay2 (F := Ideal) (iblk m c 1 t) (iblk m c 2 t) (iblk m c 3 t) (xslice (grid0.coords t) (iblk m c 0 t)) (outsAt0 m c (t.val - 1) (Nat.lt_of_le_of_lt (Nat.sub_le _ _) t.isLt)).2 := by
  rw [outsAt0_C m c t h0 h3]
  dsimp only
  exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2

/-- and the output's block is left at that new total plus the bias row. -/
theorem output_last (c : Dev nD) (t : Fin cfg0.N) (h0 : ¬t.val % 4 = 0) (h3 : t.val % 4 = 3) :
    (outsAt0 m c t.val t.isLt).1
      = k0_pay3 (F := Ideal) (k0_pay2 (F := Ideal) (iblk m c 1 t) (iblk m c 2 t) (iblk m c 3 t) (xslice (grid0.coords t) (iblk m c 0 t)) (outsAt0 m c (t.val - 1) (Nat.lt_of_le_of_lt (Nat.sub_le _ _) t.isLt)).2) (iblk m c 4 t) := by
  rw [outsAt0_C m c t h0 h3]
  dsimp only
  exact output_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2

/-! ## The closed form -/

/-- What the body stores into the scratch at point `t`, when the total it starts from is the block's running total
    after `t % 4` tiles: the running total after one tile more. -/
theorem stored_total (c : Dev nD) (t : Fin cfg0.N) (prev : FVec Ideal S256x1024 .f32)
    (hprev : prev = accBlock (X2 m c) (Q m c) (Sc m c) (Zp m c) (t.val / 4) (t.val % 4)) :
    k0_pay2 (F := Ideal) (iblk m c 1 t) (iblk m c 2 t) (iblk m c 3 t) (xslice (grid0.coords t) (iblk m c 0 t)) prev
      = accBlock (X2 m c) (Q m c) (Sc m c) (Zp m c) (t.val / 4) (t.val % 4 + 1) := by
  subst hprev
  rw [step_of_blocks (X2 m c) (Q m c) (Sc m c) (Zp m c) (t.val / 4) (t.val % 4) (iblk m c 1 t) (iblk m c 2 t) (iblk m c 3 t)
    (xslice (grid0.coords t) (iblk m c 0 t)) _ (codes_block m c t) (scales_block m c t) (zeros_block m c t) (x_slice m c t),
    accBlock_succ]

/-- The zero block is the running total after no tile. -/
theorem zero_total (c : Dev nD) (j : ℕ) : k0_pay1 (F := Ideal) = accBlock (X2 m c) (Q m c) (Sc m c) (Zp m c) j 0 := by
  rw [accBlock_zero]
  funext y
  exact pay1_apply y

/-- THE SCRATCH after point `n`: the running total of block `n / 4` after `n % 4 + 1` tiles. -/
theorem scratch_after (c : Dev nD) : ∀ (n : ℕ) (h : n < cfg0.N),
    (outsAt0 m c n h).2 = accBlock (X2 m c) (Q m c) (Sc m c) (Zp m c) (n / 4) (n % 4 + 1) := by
  intro n
  induction n using Nat.strong_induction_on with
  | _ n ih =>
    intro h
    have hN : n < 56 := lt_of_lt_of_eq h (show cfg0.N = 56 from N_0)
    by_cases h0 : n % 4 = 0
    · have h1 : ¬n % 4 = 3 := by omega
      refine (scratch_first m c ⟨n, h⟩ h0 h1).trans ?_
      refine stored_total m c ⟨n, h⟩ _ ?_
      show k0_pay1 (F := Ideal) = accBlock (X2 m c) (Q m c) (Sc m c) (Zp m c) (n / 4) (n % 4)
      rw [h0]
      exact zero_total m c (n / 4)
    · have hprev : (outsAt0 m c (n - 1) (Nat.lt_of_le_of_lt (Nat.sub_le _ _) h)).2
          = accBlock (X2 m c) (Q m c) (Sc m c) (Zp m c) (n / 4) (n % 4) := by
        rw [ih (n - 1) (by omega) _, show (n - 1) / 4 = n / 4 from by omega, show (n - 1) % 4 + 1 = n % 4 from by omega]
      by_cases h1 : n % 4 = 3
      · exact (scratch_last m c ⟨n, h⟩ h0 h1).trans (stored_total m c ⟨n, h⟩ _ hprev)
      · exact (scratch_middle m c ⟨n, h⟩ h0 h1).trans (stored_total m c ⟨n, h⟩ _ hprev)

/-- THE OUTPUT'S BLOCK after a last-tile point `t`: the total of block `t / 4` after all four tiles, plus the bias of the
    block's columns. -/
theorem output_after (c : Dev nD) (t : Fin cfg0.N) (h3 : t.val % 4 = 3) :
    (outsAt0 m c t.val t.isLt).1
      = fun y => accBlock (X2 m c) (Q m c) (Sc m c) (Zp m c) (t.val / 4) 4 y
          + B2 m c (ix2 (0 : Fin 1) (colOf (t.val / 4) (y 1 : Fin 1024))) := by
  have hN : t.val < 56 := lt_of_lt_of_eq t.isLt (show cfg0.N = 56 from N_0)
  have h0 : ¬t.val % 4 = 0 := by omega
  have hprev : (outsAt0 m c (t.val - 1) (Nat.lt_of_le_of_lt (Nat.sub_le _ _) t.isLt)).2
      = accBlock (X2 m c) (Q m c) (Sc m c) (Zp m c) (t.val / 4) (t.val % 4) := by
    rw [scratch_after m c (t.val - 1) _, show (t.val - 1) / 4 = t.val / 4 from by omega, show (t.val - 1) % 4 + 1 = t.val % 4 from by omega]
  rw [output_last m c t h0 h3, stored_total m c t _ hprev, h3]
  exact output_of_blocks (B2 m c) (t.val / 4) _ (iblk m c 4 t) (bias_block m c t)

end Cert.KernelIdeal.Inv

end
-- ==== Proof.Entry.lean ====
/-
  The arrays the region finds, in terms of the program's arguments. Before the region the program flattens `x` from
  8 × 32 × 4096 to 256 × 4096 (row `32 a + r` is row `(a, r)`), changes the float format of `x`, the scales and the
  zero points (at exact arithmetic the identity), and views the bias as a 1 × 14336 row; the integer codes go in as
  they are.
-/
import proofs.«135293_j19292993094040_2_alg».proof.Proof.Blocks
import Idealize.ShloMosaic.Lib.StableHlo.Run

noncomputable section

namespace Cert.KernelIdeal.Entry

open Cert.KernelIdeal Cert.KernelIdeal.Gen Cert.KernelIdeal.Blocks
open Idealize.ShloMosaic Idealize.ShloMosaic.TcCoe Idealize.ShloMosaic.ValueIdx Idealize.SL.Sem

variable (m : (ℓ : Loc nD τ sig) → Buf (Elt Ideal) ℓ)

/-- Row `(a, r)` of `x` in the flattened array. -/
def flatRow (a : Fin 8) (r : Fin 32) : Fin 256 := ⟨a.val * 32 + r.val, by have := a.isLt; have := r.isLt; omega⟩

theorem X2_eq (c : Dev nD) :
    X2 m c = truncf (F := Ideal) (φ := .f32) .bf16
      (shapeCast S256x4096 (m ((c : Thread nD τ).loc main_arg0) : FVec Ideal S8x32x4096 .f32) shapeCasts_S8x32x4096_S256x4096) bitsLt_bf16_f32 := by
  unfold X2
  show StableHlo.after hostOps0 (fun b => m (c, b)) (Proc.devRef .tc main_v1) = _
  after_results
  rfl

/-- The flattened `x` at row `32 a + r` is `x` at row `(a, r)`. -/
theorem X2_apply (c : Dev nD) (a : Fin 8) (r : Fin 32) (k : Fin 4096) :
    X2 m c (ix2 (flatRow a r) k) = (m ((c : Thread nD τ).loc main_arg0) : S8x32x4096.Idx → EReal) (ix3 a r k) := by
  rw [X2_eq, truncf_apply]
  exact shapeCast_apply _ shapeCasts_S8x32x4096_S256x4096 (ix2 (flatRow a r) k) (ix3 a r k) (by
    rw [Shape.rowMajor_val_two, Shape.rowMajor_val_three]
    show (a.val * 32 + r.val) * 4096 + k.val = (a.val * 32 + r.val) * 4096 + k.val
    rfl)

/-- The integer codes are the argument. -/
theorem Q_eq (c : Dev nD) : Q m c = m ((c : Thread nD τ).loc main_arg1) := V_main_arg1 m c

/-- The scales are the argument. -/
theorem Sc_eq (c : Dev nD) : Sc m c = (m ((c : Thread nD τ).loc main_arg2) : S32x14336.Idx → EReal) := by
  unfold Sc
  show StableHlo.after hostOps0 (fun b => m (c, b)) (Proc.devRef .tc main_v2) = _
  after_results
  rfl

/-- The zero points are the argument. -/
theorem Zp_eq (c : Dev nD) : Zp m c = (m ((c : Thread nD τ).loc main_arg3) : S32x14336.Idx → EReal) := by
  unfold Zp
  show StableHlo.after hostOps0 (fun b => m (c, b)) (Proc.devRef .tc main_v3) = _
  after_results
  rfl

theorem B2_eq (c : Dev nD) :
    B2 m c = shapeCast S1x14336 (m ((c : Thread nD τ).loc main_arg4) : FVec Ideal S14336 .f32) shapeCasts_S14336_S1x14336 := by
  unfold B2
  show StableHlo.after hostOps0 (fun b => m (c, b)) (Proc.devRef .tc main_v4) = _
  after_results
  rfl

/-- The bias row at column `n` is the bias at `n`. -/
theorem B2_apply (c : Dev nD) (n : Fin 14336) :
    B2 m c (ix2 (0 : Fin 1) n) = (m ((c : Thread nD τ).loc main_arg4) : S14336.Idx → EReal) (ix1 n) := by
  rw [B2_eq]
  exact shapeCast_apply _ shapeCasts_S14336_S1x14336 (ix2 (0 : Fin 1) n) (ix1 n) (by
    rw [Shape.rowMajor_val_two, Shape.rowMajor_val_one]
    show n.val = 0 * 14336 + n.val
    omega)

end Cert.KernelIdeal.Entry

end
-- ==== Proof.Final.lean ====
/-
  From blocks to the arrays. The output's block is written back at the last feature tile of each output-feature block,
  point `4 j + 3`; what is written there is block `j` of ONE function of the arrays the region found — the total after
  four tiles plus the bias (`G2`) —, and the fourteen blocks tile the 256 × 14336 array, so the array ends holding that
  function. The program's last operation views it as 8 × 32 × 14336: row `32 a + r` becomes row `(a, r)`. Read with the
  arrays the region found expressed by the arguments, the result is the specification's `G` of the arguments.
-/
import proofs.«135293_j19292993094040_2_alg».proof.Proof.Invariant
import proofs.«135293_j19292993094040_2_alg».proof.Proof.Entry
import Idealize.ShloMosaic.Lib.StableHlo.Run

noncomputable section

namespace Cert.KernelIdeal.Final

open Cert.KernelIdeal Cert.KernelIdeal.Gen Cert.KernelIdeal.Blocks Cert.KernelIdeal.Inv Cert.KernelIdeal.Entry Cert.QMatmul
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The kernel's 256 × 14336 output as one function of the arrays the region found. -/
abbrev K2 (c : Dev nD) : S256x14336.Idx → EReal := G2 (X2 m c) (Q m c) (Sc m c) (Zp m c) (B2 m c)

/-- WHAT A WRITING-BACK POINT WRITES is its block of that function. -/
theorem flushed_eq (c : Dev nD) (t : Fin cfg0.N) (hf : (cfg0.win 5).flush t = true) :
    (dats m 0 c).flushed 5 t = ((cfg0.win 5).blk t).view.read (Elt Ideal) (K2 m c) := by
  have hN : t.val < 56 := lt_of_lt_of_eq t.isLt (show cfg0.N = 56 from N_0)
  have h3 : t.val % 4 = 3 := (flush0_5 t).mp hf
  obtain ⟨-, -, -, -, -, -, -, -, -, -, e0, e1, -, -⟩ := idx_facts t
  show (cfg0.win 5).cut (grid0.coords t) ((dats m 0 c).after 5 t) = _
  rw [after0_5, output_after m c t h3]
  funext y
  have hy0 : (y 0).val < 256 := (y 0).isLt
  have hy1 : (y 1).val < 1024 := (y 1).isLt
  have hr : ((((cfg0.win 5).blk t).view.emb y) 0 : Fin 256) = (y 0 : Fin 256) :=
    Fin.ext (by show win0_5.index t (0 : Fin 2) * 256 + 1 * (y 0).val = (y 0).val; omega)
  have hc : ((((cfg0.win 5).blk t).view.emb y) 1 : Fin 14336) = colOf (t.val / 4) (y 1 : Fin 1024) :=
    Fin.ext (by show win0_5.index t (1 : Fin 2) * 1024 + 1 * (y 1).val = (t.val / 4 * 1024 + (y 1).val) % 14336; omega)
  show accBlock (X2 m c) (Q m c) (Sc m c) (Zp m c) (t.val / 4) 4 y + B2 m c (ix2 (0 : Fin 1) (colOf (t.val / 4) (y 1 : Fin 1024)))
    = K2 m c (((cfg0.win 5).blk t).view.emb y)
  refine Eq.trans ?_ (congrArg₂ (out2 (X2 m c) (Q m c) (Sc m c) (Zp m c) (B2 m c)) hr hc).symm
  rfl

/-- An index of the array is in point `t`'s block iff each coordinate is in the block's range on its axis. -/
theorem mem_blk (t : Fin cfg0.N) (i : S256x14336.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Column `n` lies in the block written back at the last feature tile of output-feature block `n / 1024`. -/
theorem cover (i : S256x14336.Idx) : ∃ t : Fin cfg0.N, (cfg0.win 5).flush t = true ∧ i ∈ ((cfg0.win 5).blk t).view.set := by
  have hi0 : (i 0).val < 256 := (i 0).isLt
  have hi1 : (i 1).val < 14336 := (i 1).isLt
  let t : Fin cfg0.N := ⟨(i 1).val / 1024 * 4 + 3, by rw [show cfg0.N = 56 from N_0]; omega⟩
  have ht : t.val = (i 1).val / 1024 * 4 + 3 := rfl
  obtain ⟨-, -, -, -, -, -, -, -, -, -, e0, e1, -, -⟩ := idx_facts t
  refine ⟨t, (flush0_5 t).mpr (by rw [ht]; omega), ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- THE OUTPUT ARRAY after the region. -/
theorem final (c : Dev nD) : (dats m 0 c).arrAt 5 cfg0.N = K2 m c :=
  (dats m 0 c).arrAt_eq_of_cover 5 (K2 m c) (flushed_eq m c) cover

/-- The program's result: the output array viewed as 8 × 32 × 14336. -/
theorem tail (c : Dev nD) :
    Pipeline.afterTail₀ cfgs (dats m) 0 (V0 m) [hostOps1] c main_v6
      = shapeCast S8x32x14336 (K2 m c) shapeCasts_S256x14336_S8x32x14336 := by
  unfold Pipeline.afterTail₀
  show StableHlo.after hostOps1 _ (Proc.devRef .tc main_v6) = _
  after_results
  exact congrArg (fun v => shapeCast S8x32x14336 v shapeCasts_S256x14336_S8x32x14336)
    ((Pipeline.withArrays_arr spec0 launch0.win.arr_inj c _ _ 5).trans (final m c))

end Cert.KernelIdeal.Final

end
-- ==== Proof.KernelRun.lean ====
/-
  The kernel's run, read. Every weakly fair execution of the kernel's program ends with the result array holding the
  specification `G` of the argument arrays, and the arguments unchanged: the generated frame run gives the output array
  as what the pipeline's write-backs leave and the result as the last reshape of it; the write-backs leave the total after
  four tiles plus the bias; the total after four tiles is the whole contraction; and the arrays the region found are the
  arguments, flattened or viewed as the host operations before the region leave them.
-/
import proofs.«135293_j19292993094040_2_alg».proof.Proof.Final

noncomputable section

namespace Cert.KernelIdeal.Run

open Cert.KernelIdeal Cert.KernelIdeal.Gen Cert.KernelIdeal.Blocks Cert.KernelIdeal.Entry Cert.KernelIdeal.Final Cert.QMatmul
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification of the launch contents of the arguments. -/
abbrev spec (c : Dev nD) : S8x32x14336.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The reshaped output array is the specification: row `32 a + r` of the 256 × 14336 array is row `(a, r)`, the
    running total after four tiles is the contraction over all 4096 features, and the arrays the region found are the
    arguments. -/
theorem result_eq (c : Dev nD) :
    shapeCast S8x32x14336 (K2 m c) shapeCasts_S256x14336_S8x32x14336 = spec m c := by
  funext i
  obtain ⟨a, r, n, rfl⟩ : ∃ (a : Fin 8) (r : Fin 32) (n : Fin 14336), i = ix3 a r n := ⟨i 0, i 1, i 2, eq_ix3 i⟩
  rw [shapeCast_apply (K2 m c) shapeCasts_S256x14336_S8x32x14336 (ix3 a r n) (ix2 (flatRow a r) n) (by
    rw [Shape.rowMajor_val_two, Shape.rowMajor_val_three]
    show (a.val * 32 + r.val) * 14336 + n.val = (a.val * 32 + r.val) * 14336 + n.val
    rfl)]
  show out2 (X2 m c) (Q m c) (Sc m c) (Zp m c) (B2 m c) (flatRow a r) n
    = out (m ((c : Thread nD τ).loc main_arg0)) (m ((c : Thread nD τ).loc main_arg1)) (m ((c : Thread nD τ).loc main_arg2))
        (m ((c : Thread nD τ).loc main_arg3)) (m ((c : Thread nD τ).loc main_arg4)) a r n
  unfold out2 out
  rw [acc_four, B2_apply, Q_eq, Sc_eq, Zp_eq]
  refine congrArg (· + _) (Finset.sum_congr rfl fun k _ => ?_)
  rw [X2_apply]

/-- THE KERNEL'S RUN: the result at the specification of the arguments, the arguments unchanged. -/
theorem run : θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans ((tail m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefSide.lean ====
/-
  The reference computes the specification. Read one operation at a time, the reference converts the integer codes,
  views them as 32 groups of 128 rows, multiplies by the scales and adds the zero points repeated along each group's
  rows, views the result as a 4096 × 14336 matrix again — so entry `(k, n)` is the code at `(k, n)` times the scale, plus
  the zero point, of group `k / 128` —, contracts `x` with it over the 4096 features and adds the bias repeated along the
  rows. Index by index this is `G`; the proof is the bookkeeping of the reshapes' and broadcasts' index maps.
-/
import proofs.«135293_j19292993094040_2_alg».proof.Defs
import proofs.«135293_j19292993094040_2_alg».proof.Proof.Gen.ReferenceIdeal.Run
import proofs.«135293_j19292993094040_2_alg».proof.Proof.Gen.ReferenceIdeal.Read
import proofs.«135293_j19292993094040_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.QMatmul Idealize.ShloMosaic Idealize.ShloMosaic.ValueIdx

/-- The reference's dequantized weight matrix at `(k, n)`. -/
theorem weights_apply (x1 : S4096x14336.Idx → BitVec 32) (x2 x3 : S32x14336.Idx → EReal) (k : Fin 4096) (n : Fin 14336) :
    val_main_v8 (F := Ideal) x1 x2 x3 (ix2 k n) = weight x1 x2 x3 n k := by
  have hk := k.isLt
  have hn := n.isLt
  have i1 : idx_main_v1 (idx_main_v8 (ix2 k n)) = ix2 k n := funext fun d => Fin.ext (by
    match d with
    | ⟨0, _⟩ =>
      show (((k.val * 14336 + n.val) / 1835008 * 128 + (k.val * 14336 + n.val) / 14336 % 128) * 14336 + (k.val * 14336 + n.val) % 14336) / 14336 = k.val
      omega
    | ⟨1, _⟩ =>
      show (((k.val * 14336 + n.val) / 1835008 * 128 + (k.val * 14336 + n.val) / 14336 % 128) * 14336 + (k.val * 14336 + n.val) % 14336) % 14336 = n.val
      omega)
  have i2 : idx_main_v2 (idx_main_v3 (idx_main_v8 (ix2 k n))) = ix2 (grp k) n := funext fun d => Fin.ext (by
    match d with
    | ⟨0, _⟩ => show (k.val * 14336 + n.val) / 1835008 = k.val / 128; omega
    | ⟨1, _⟩ => show (k.val * 14336 + n.val) % 14336 = n.val; omega)
  have i5 : idx_main_v5 (idx_main_v6 (idx_main_v8 (ix2 k n))) = ix2 (grp k) n := funext fun d => Fin.ext (by
    match d with
    | ⟨0, _⟩ => show (k.val * 14336 + n.val) / 1835008 = k.val / 128; omega
    | ⟨1, _⟩ => show (k.val * 14336 + n.val) % 14336 = n.val; omega)
  rw [val_main_v8_apply, val_main_v7_apply, val_main_v4_apply, val_main_v1_apply, val_main_v0_apply, val_main_v3_apply,
    val_main_v2_apply, val_main_v6_apply, val_main_v5_apply, i1, i2, i5]
  rfl

/-- THE REFERENCE'S RESULT is the specification of its arguments. -/
theorem result_eq (x0 : S8x32x4096.Idx → EReal) (x1 : S4096x14336.Idx → BitVec 32) (x2 x3 : S32x14336.Idx → EReal)
    (x4 : S14336.Idx → EReal) :
    val_main_v12 (F := Ideal) x0 x1 x2 x3 x4 = G x0 x1 x2 x3 x4 := by
  funext i
  obtain ⟨a, r, n, rfl⟩ : ∃ (a : Fin 8) (r : Fin 32) (n : Fin 14336), i = ix3 a r n := ⟨i 0, i 1, i 2, eq_ix3 i⟩
  have e4 : idx_main_v10 (idx_main_v11 (ix3 a r n)) = ix1 n := funext fun d => Fin.ext (by match d with | ⟨0, _⟩ => rfl)
  have el : ∀ k : Fin 4096, lidx_main_v9 (ix3 a r n) k = ix3 a r k := fun k => funext fun d => Fin.ext (by
    match d with | ⟨0, _⟩ => rfl | ⟨1, _⟩ => rfl | ⟨2, _⟩ => rfl)
  have er : ∀ k : Fin 4096, ridx_main_v9 (ix3 a r n) k = ix2 k n := fun k => funext fun d => Fin.ext (by
    match d with | ⟨0, _⟩ => rfl | ⟨1, _⟩ => rfl)
  rw [val_main_v12_apply, val_main_v9_apply, val_main_v11_apply, val_main_v10_apply, e4]
  show (∑ k : Fin 4096, x0 (lidx_main_v9 (ix3 a r n) k) * val_main_v8 (F := Ideal) x1 x2 x3 (ridx_main_v9 (ix3 a r n) k)) + x4 (ix1 n)
    = out x0 x1 x2 x3 x4 a r n
  unfold out
  refine congrArg (· + x4 (ix1 n)) (Finset.sum_congr rfl fun k _ => ?_)
  rw [el, er, weights_apply]

end Cert.ReferenceIdeal.RefValue

end
-- ==== Proof.lean ====
/-
  The kernel multiplies `x` (8 × 32 rows of 4096 features) by a weight matrix stored as integer codes with one scale and
  one zero point per group of 128 features and output feature, and adds a bias; the reference computes the same with
  jnp. Over the extended reals both are

      y[a, r, n] = Σ_{k < 4096} x[a, r, k] · (q[k, n] · scale[k / 128, n] + zero[k / 128, n])  +  bias[n].

  The kernel cuts the 4096 features into four tiles and keeps a running total per block of 1024 output features in a
  scratch buffer, zeroed at a block's first tile and completed with the bias at its last; the reference takes the
  contraction in one piece. A sum taken tile by tile is the whole sum, by associativity of `+` alone, so no input
  needs to be finite for the two results to agree; changes of float format are the identity at exact arithmetic and the
  integer codes convert to themselves on both sides.

  The modules: the tiled-sum law (LibTiledSum) and the specification (Spec); the body's re-layouts and its stores read
  at one element (Layout, Payload, Step); what each run of the body leaves (Pieces) on the blocks the pipeline hands it
  (Blocks), hence the running total point by point (Invariant); the output array from its blocks and the result after
  the last reshape (Final), read over the arguments (Entry, KernelRun); the reference's term (RefSide). The three frame
  claims are the generated frame runs; the idealization changed nothing in the kernel, so `preserves` asks nothing.
-/
import proofs.«135293_j19292993094040_2_alg».proof.Defs
import proofs.«135293_j19292993094040_2_alg».proof.Proof.Gen.Kernel
import proofs.«135293_j19292993094040_2_alg».proof.Proof.Gen.Kernel.Skeleton
import proofs.«135293_j19292993094040_2_alg».proof.Proof.Gen.Kernel.Launch
import proofs.«135293_j19292993094040_2_alg».proof.Proof.Gen.Kernel.Points
import proofs.«135293_j19292993094040_2_alg».proof.Proof.Gen.Kernel.Frame
import proofs.«135293_j19292993094040_2_alg».proof.Proof.Gen.KernelIdeal
import proofs.«135293_j19292993094040_2_alg».proof.Proof.Gen.KernelIdeal.Skeleton
import proofs.«135293_j19292993094040_2_alg».proof.Proof.Gen.KernelIdeal.Launch
import proofs.«135293_j19292993094040_2_alg».proof.Proof.Gen.KernelIdeal.Points
import proofs.«135293_j19292993094040_2_alg».proof.Proof.Gen.KernelIdeal.Frame
import proofs.«135293_j19292993094040_2_alg».proof.Proof.Gen.ReferenceIdeal
import proofs.«135293_j19292993094040_2_alg».proof.Proof.Gen.ReferenceIdeal.Run
import proofs.«135293_j19292993094040_2_alg».proof.Proof.Gen.ReferenceIdeal.Read
import proofs.«135293_j19292993094040_2_alg».proof.Proof.Gen.Pre_finite_inputs
import proofs.«135293_j19292993094040_2_alg».proof.Proof.KernelRun
import proofs.«135293_j19292993094040_2_alg».proof.Proof.RefSide
import Idealize.ShloMosaic.Adequacy
import Idealize.ShloMosaic.Init

noncomputable section

namespace Cert.Proof

open Idealize.ShloMosaic Idealize.SL.Sem

/-- The word-level kernel runs and leaves its arguments unchanged: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments both programs end with the specification of those arguments as their
    result: the kernel by its run read through the running total, the reference by its term read index by index. -/
theorem algebraic : Cert.algebraic_KernelIdeal_ReferenceIdeal := by
  intro m ρ m' ρ' _ hagree
  refine ⟨fun c => Cert.KernelIdeal.Run.spec m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
